-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x16 : Shape := ⟨2, ![4096, 16]⟩
abbrev S16x4096 : Shape := ⟨2, ![16, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S4x2048x4096 .f32) (main_arg1 : FVec F S4096x16 .f32) (main_arg2 : FVec F S16x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  main_v13
-- ==== Kernel.lean ====
abbrev S4x2048x4096 : Shape := ⟨3, ![4, 2048, 4096]⟩
abbrev S4096x16 : Shape := ⟨2, ![4096, 16]⟩
abbrev S16x4096 : Shape := ⟨2, ![16, 4096]⟩
abbrev S8192x4096 : Shape := ⟨2, ![8192, 4096]⟩
abbrev S256x4096 : Shape := ⟨2, ![256, 4096]⟩
abbrev S256x16 : Shape := ⟨2, ![256, 16]⟩

abbrev nBuf : Space → Nat
  | .hbm => 8
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x16, .f32⟩
  | .hbm, ⟨2, _⟩ => ⟨S16x4096, .f32⟩
  | .hbm, ⟨3, _⟩ => ⟨S8192x4096, .f32⟩
  | .hbm, ⟨4, _⟩ => ⟨S4096x16, .f32⟩
  | .hbm, ⟨5, _⟩ => ⟨S16x4096, .f32⟩
  | .hbm, ⟨6, _⟩ => ⟨S8192x4096, .f32⟩
  | .hbm, ⟨7, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x16, .f32⟩
  | .local _ .vmem, ⟨3, _⟩ => ⟨S16x4096, .f32⟩
  | .local _ .vmem, ⟨4, _⟩ => ⟨S256x4096, .f32⟩
  | .local _ .vmem, ⟨5, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x4096_S8192x4096 : S4x2048x4096.ShapeCasts S8192x4096
  transposes_S16x4096_S4096x16_1_0 : S16x4096.Transposes [1, 0] S4096x16
  transposes_S4096x16_S16x4096_1_0 : S4096x16.Transposes [1, 0] S16x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  shapeCasts_S8192x4096_S4x2048x4096 : S8192x4096.ShapeCasts S4x2048x4096
  dot_S256x4096_S4096x16_S256x16_1_0_0_1_n_n_wf : DotDims.WF S256x4096 S4096x16 S256x16 [1] [0] [0] [1] [] []
  dot_S256x16_S16x4096_S256x4096_1_0_0_1_n_n_wf : DotDims.WF S256x16 S16x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S4096x16.size a
  hwx0_1 : ∀ i : grid0.Coords, EltTy.bits .f32 = 32 ∨ (Rect.block (s := S4096x16) S4096x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf
def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x16 : Shape := ⟨2, ![4096, 16]⟩
abbrev S16x4096 : Shape := ⟨2, ![16, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x16, .f32⟩
  | .hbm, ⟨2, _⟩ => ⟨S16x4096, .f32⟩
  | .hbm, ⟨3, _⟩ => ⟨S4096x4096, .f32⟩
  | .hbm, ⟨4, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LoraBlock.lean ====
/-
  What the kernel body stores, read at an entry (p, q) of its [256, 4096] output block, at the ideal instance.

  The body loads a [256, 4096] block x of the flattened input, the whole [4096, 16] factor at (the transposed A) and the
  whole [16, 4096] factor bt (the transposed B). It forms y = x · at (a [256, 16] matrix) and stores y · bt. The changes
  of float format in between are the identity on the extended reals, the shape casts are to the same shape, and both
  products start from a zero accumulator, so the stored entry is
      Σ_r (Σ_k x (p, k) · at (k, r)) · bt (r, q).
-/
import proofs.«181855_j11914239279650_2_alg».proof.Proof.Gen.KernelIdeal.Skeleton
import proofs.«181855_j11914239279650_2_alg».proof.Proof.LibPlainDot
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx

/-- The first product, y = x · at, at (p, r). -/
theorem inner_apply (x : Vec Ideal S256x4096 .f32) (at' : Vec Ideal S4096x16 .f32) (p : Fin 256) (r : Fin 16) :
    (matmul dot_S256x4096_S4096x16_S256x16_1_0_0_1_n_n none
        (truncf .bf16 (shapeCast S256x4096 x Facts₀.shapeCasts_S256x4096_S256x4096) Facts₀.bitsLt_bf16_f32)
        (truncf .bf16 (shapeCast S4096x16 at' Facts₀.shapeCasts_S4096x16_S4096x16) Facts₀.bitsLt_bf16_f32)
        (constant (F := Ideal) S256x16 .f32 0x00000000#32)) (ix2 p r)
      = ∑ k : Fin 4096, x (ix2 p k) * at' (ix2 k r) := by
  rw [shapeCast_self, shapeCast_self]
  exact Cert.Lib.matmul_zero_apply Facts₀.dot_S256x4096_S4096x16_S256x16_1_0_0_1_n_n_wf none _ _ p r

/-- The stored value at (p, q): the second product over the R = 16 columns of y. -/
theorem pay_apply (x : Vec Ideal S256x4096 .f32) (at' : Vec Ideal S4096x16 .f32) (bt : Vec Ideal S16x4096 .f32)
    (p : Fin 256) (q : Fin 4096) :
    k0_pay1 (F := Ideal) x at' bt (ix2 p q)
      = ∑ r : Fin 16, (∑ k : Fin 4096, x (ix2 p k) * at' (ix2 k r)) * bt (ix2 r q) := by
  unfold k0_pay1
  rw [shapeCast_self bt]
  refine (Cert.Lib.matmul_zero_apply Facts₀.dot_S256x16_S16x4096_S256x4096_1_0_0_1_n_n_wf none _ _ p q).trans ?_
  refine Finset.sum_congr rfl fun r _ => ?_
  exact congrArg (· * bt (ix2 r q)) (inner_apply x at' p r)

end Cert.KernelIdeal.Block

end
-- ==== Proof.LoraAlgebra.lean ====
/-
  The low-rank product, reassociated. Independent of any program.

  A row f of the input is first contracted with the R rows of the factor a (giving R numbers), and these are then
  contracted with a row b of the other factor:   Σ_r (Σ_k f k · a r k) · b r.
  Multiplying the two factors first gives one row of the full weight, Σ_r b r · a r k, which is then contracted with
  the input row:   Σ_k f k · (Σ_r b r · a r k).
  The two agree by distributivity and an exchange of the two finite sums. On the extended reals distributivity fails
  at the infinities (∞ · (1 + (−1)) is not ∞ · 1 + ∞ · (−1)), so the law is stated for entries that are real numbers.
-/
import Mathlib.Data.EReal.Basic
import Mathlib.Data.EReal.Operations
import Mathlib.Algebra.BigOperators.Ring.Finset
import Mathlib.Algebra.BigOperators.Group.Finset.Sigma
import Mathlib.Tactic.Ring

noncomputable section

namespace Cert.Lora

open Finset

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: contracting the input row with the factor a and then with b is contracting it with the
    product row Σ_r b r · a r k. -/
theorem reassoc_real {κ ρ : Type} [Fintype κ] [Fintype ρ] (f : κ → ℝ) (a : ρ → κ → ℝ) (b : ρ → ℝ) :
    ∑ r, (∑ k, f k * a r k) * b r = ∑ k, f k * ∑ r, b r * a r k := by
  simp only [Finset.sum_mul, Finset.mul_sum]
  rw [Finset.sum_comm]
  exact Finset.sum_congr rfl fun k _ => Finset.sum_congr rfl fun r _ => by ring

/-- The same on the extended reals, for entries that are real numbers. -/
theorem reassoc {κ ρ : Type} [Fintype κ] [Fintype ρ] (f : κ → EReal) (a : ρ → κ → EReal) (b : ρ → EReal)
    (hf : ∀ k, ∃ x : ℝ, f k = (x : EReal)) (ha : ∀ r k, ∃ x : ℝ, a r k = (x : EReal))
    (hb : ∀ r, ∃ x : ℝ, b r = (x : EReal)) :
    ∑ r, (∑ k, f k * a r k) * b r = ∑ k, f k * ∑ r, b r * a r k := by
  choose f' hf' using hf
  choose a' ha' using ha
  choose b' hb' using hb
  simp only [hf', ha', hb', ← EReal.coe_mul, ← coe_sum]
  exact congrArg _ (reassoc_real f' a' b')

end Cert.Lora

end
-- ==== Proof.LoraSpec.lean ====
/-
  The result of the low-rank linear layer as one function of the three argument arrays, in two arrangements, and the
  flattened, transposed arrangement a row-blocked evaluation works on. Independent of any program.

  Arguments: x of shape [4, 2048, 4096] (batch, position, input feature), B of shape [4096, 16] (output feature, rank),
  A of shape [16, 4096] (rank, input feature).
    * factored:  out (b, s, o) = Σ_r (Σ_k x (b, s, k) · A (r, k)) · B (o, r)      — x · Aᵀ first, then · Bᵀ;
    * dense:     out (b, s, o) = Σ_k x (b, s, k) · (Σ_r B (o, r) · A (r, k))      — the full weight B · A first.
  They agree when every entry is a real number (the reassociation law).
  The flattened arrangement reads x as an [8192, 4096] matrix (row b · 2048 + s), A and B through their transposes, and
  yields an [8192, 4096] matrix; reshaped back to [4, 2048, 4096] it is the factored form.
-/
import Idealize.ShloMosaic.Lib.Pipeline.Value
import Idealize.ShloMosaic.Lib.ValueIdx
import Idealize.ShloMosaic.PureOps.Ideal
import proofs.«181855_j11914239279650_2_alg».proof.Proof.LoraAlgebra

noncomputable section

namespace Cert.Lora

open Idealize.ShloMosaic Idealize.ShloMosaic.ValueIdx

/-- x: [4, 2048, 4096]. -/
abbrev SX : Shape := ⟨3, ![4, 2048, 4096]⟩
/-- B, and the transposed A: [4096, 16]. -/
abbrev SB : Shape := ⟨2, ![4096, 16]⟩
/-- A, and the transposed B: [16, 4096]. -/
abbrev SA : Shape := ⟨2, ![16, 4096]⟩
/-- The flattened x and the flattened result: [8192, 4096]. -/
abbrev SF : Shape := ⟨2, ![8192, 4096]⟩

/-- x · Aᵀ, then · Bᵀ. -/
def factored (X : SX.Idx → EReal) (B : SB.Idx → EReal) (A : SA.Idx → EReal) : SX.Idx → EReal := fun i =>
  ∑ r : Fin 16, (∑ k : Fin 4096, X (ix3 (i 0) (i 1) k) * A (ix2 r k)) * B (ix2 (i 2) r)

/-- x · (B · A)ᵀ. -/
def dense (X : SX.Idx → EReal) (B : SB.Idx → EReal) (A : SA.Idx → EReal) : SX.Idx → EReal := fun i =>
  ∑ k : Fin 4096, X (ix3 (i 0) (i 1) k) * ∑ r : Fin 16, B (ix2 (i 2) r) * A (ix2 r k)

/-- For real entries the two arrangements are one function. -/
theorem factored_eq_dense (X : SX.Idx → EReal) (B : SB.Idx → EReal) (A : SA.Idx → EReal)
    (hX : ∀ i, ∃ x : ℝ, X i = (x : EReal)) (hB : ∀ i, ∃ x : ℝ, B i = (x : EReal)) (hA : ∀ i, ∃ x : ℝ, A i = (x : EReal)) :
    factored X B A = dense X B A :=
  funext fun i => reassoc (fun k : Fin 4096 => X (ix3 (i 0) (i 1) k)) (fun (r : Fin 16) (k : Fin 4096) => A (ix2 r k))
    (fun r : Fin 16 => B (ix2 (i 2) r)) (fun _ => hX _) (fun _ _ => hA _) (fun _ => hB _)

/-- The row-blocked evaluation's result on the flattened input and the transposed factors: entry (row, o). -/
def flat (X2 : SF.Idx → EReal) (At : SB.Idx → EReal) (Bt : SA.Idx → EReal) : SF.Idx → EReal := fun j =>
  ∑ r : Fin 16, (∑ k : Fin 4096, X2 (ix2 (j 0) k) * At (ix2 k r)) * Bt (ix2 r (j 1))

/-- The flattened x at (b · 2048 + s, k) is x at (b, s, k). -/
theorem flatten_apply (X : SX.Idx → EReal) (hx : SX.ShapeCasts SF) (b : Fin 4) (s : Fin 2048) (k : Fin 4096)
    (row : Fin 8192) (hrow : row.val = b.val * 2048 + s.val) :
    shapeCast SF X hx (ix2 row k) = X (ix3 b s k) :=
  shapeCast_apply X hx (ix2 row k) (ix3 b s k) (by
    rw [Shape.rowMajor_val_two, Shape.rowMajor_val_three]
    show (b.val * 2048 + s.val) * 4096 + k.val = row.val * 4096 + k.val
    rw [hrow])

/-- The transposed A at (k, r) is A at (r, k). -/
theorem transA_apply (A : SA.Idx → EReal) (ha : SA.Transposes [1, 0] SB) (k : Fin 4096) (r : Fin 16) :
    transpose SB [1, 0] A ha (ix2 k r) = A (ix2 r k) :=
  transpose_apply [1, 0] A ha (ix2 k r) (ix2 r k) (fun b => by match b with | ⟨0, _⟩ => rfl | ⟨1, _⟩ => rfl)

/-- The transposed B at (r, o) is B at (o, r). -/
theorem transB_apply (B : SB.Idx → EReal) (hb : SB.Transposes [1, 0] SA) (r : Fin 16) (o : Fin 4096) :
    transpose SA [1, 0] B hb (ix2 r o) = B (ix2 o r) :=
  transpose_apply [1, 0] B hb (ix2 r o) (ix2 o r) (fun b => by match b with | ⟨0, _⟩ => rfl | ⟨1, _⟩ => rfl)

/-- The flat result on the flattened x and the transposed factors, reshaped to [4, 2048, 4096], is the factored form. -/
theorem unflatten (X : SX.Idx → EReal) (B : SB.Idx → EReal) (A : SA.Idx → EReal)
    (hx : SX.ShapeCasts SF) (ha : SA.Transposes [1, 0] SB) (hb : SB.Transposes [1, 0] SA) (ho : SF.ShapeCasts SX) :
    shapeCast SX (flat (shapeCast SF X hx) (transpose SB [1, 0] A ha) (transpose SA [1, 0] B hb)) ho = factored X B A := by
  funext i
  have hi0 : (i 0).val < 4 := (i 0).isLt
  have hi1 : (i 1).val < 2048 := (i 1).isLt
  have hrow : (i 0).val * 2048 + (i 1).val < 8192 := by omega
  rw [shapeCast_apply _ ho i (ix2 (⟨(i 0).val * 2048 + (i 1).val, hrow⟩ : Fin 8192) (i 2)) (by
    rw [Shape.rowMajor_val_two, Shape.rowMajor_val_three]; rfl)]
  show ∑ r : Fin 16, (∑ k : Fin 4096, shapeCast SF X hx (ix2 (⟨(i 0).val * 2048 + (i 1).val, hrow⟩ : Fin 8192) k)
      * transpose SB [1, 0] A ha (ix2 k r)) * transpose SA [1, 0] B hb (ix2 r (i 2)) = _
  unfold factored
  refine Finset.sum_congr rfl fun r _ => ?_
  rw [transB_apply B hb r (i 2)]
  refine congrArg (· * B (ix2 (i 2) r)) (Finset.sum_congr rfl fun k _ => ?_)
  rw [flatten_apply X hx (i 0) (i 1) k _ rfl, transA_apply A ha k r]

end Cert.Lora

end
-- ==== Proof.LoraArray.lean ====
/-
  The kernel's result array, read off its run.

  The program first flattens x to an [8192, 4096] matrix (row b · 2048 + s), transposes A to [4096, 16] and B to
  [16, 4096]; the region then works on 32 row blocks of 256 rows each: at block t it reads rows 256 t … 256 t + 255 of
  the flattened x and the two whole transposed factors, and writes the same rows of the [8192, 4096] result. Every row
  lies in exactly one block (row / 256), so the result array is the flat form of the low-rank product; the program's last
  line reshapes it to [4, 2048, 4096], which is the factored form of the three arguments.
-/
import proofs.«181855_j11914239279650_2_alg».proof.Proof.Gen.KernelIdeal.Frame
import proofs.«181855_j11914239279650_2_alg».proof.Proof.LoraBlock
import proofs.«181855_j11914239279650_2_alg».proof.Proof.LoraSpec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds -/

/-- The flattened x. -/
theorem V_flat (c : Dev nD) : (V m c main_v0 : S8192x4096.Idx → EReal)
    = shapeCast S8192x4096 (m ((c : Thread nD τ).loc main_arg0)) Facts₀.shapeCasts_S4x2048x4096_S8192x4096 := by
  show StableHlo.after hostOps0 (fun b => m (c, b)) (Proc.devRef .tc main_v0) = _
  after_results
  rfl

/-- The transposed A. -/
theorem V_At (c : Dev nD) : (V m c main_v1 : S4096x16.Idx → EReal)
    = transpose S4096x16 [1, 0] (m ((c : Thread nD τ).loc main_arg2)) Facts₀.transposes_S16x4096_S4096x16_1_0 := by
  show StableHlo.after hostOps0 (fun b => m (c, b)) (Proc.devRef .tc main_v1) = _
  after_results

/-- The transposed B. -/
theorem V_Bt (c : Dev nD) : (V m c main_v2 : S16x4096.Idx → EReal)
    = transpose S16x4096 [1, 0] (m ((c : Thread nD τ).loc main_arg1)) Facts₀.transposes_S4096x16_S16x4096_1_0 := by
  show StableHlo.after hostOps0 (fun b => m (c, b)) (Proc.devRef .tc main_v2) = _
  after_results

/-- The [8192, 4096] result of the region: the flat form on the arrays the region finds. -/
abbrev G (c : Dev nD) : S8192x4096.Idx → EReal :=
  Cert.Lora.flat (V m c main_v0) (V m c main_v1) (V m c main_v2)

/-! ## One block -/

/-- The stored block at (p, q), when the x block's row p is row `row` of the flattened x and the two factor blocks are
    the whole transposed factors: the flat form at (row, q). -/
theorem block_flat (x0 : Vec Ideal S256x4096 .f32) (x1 : Vec Ideal S4096x16 .f32) (x2 : Vec Ideal S16x4096 .f32)
    (X2 : S8192x4096.Idx → EReal) (At : S4096x16.Idx → EReal) (Bt : S16x4096.Idx → EReal)
    (j : S256x4096.Idx) (i : S8192x4096.Idx) (p : Fin 256) (q : Fin 4096) (row : Fin 8192)
    (hj : j = ix2 p q) (hi : i = ix2 row q)
    (hx : ∀ k : Fin 4096, x0 (ix2 p k) = X2 (ix2 row k))
    (h1 : ∀ (k : Fin 4096) (r : Fin 16), x1 (ix2 k r) = At (ix2 k r))
    (h2 : ∀ (r : Fin 16) (o : Fin 4096), x2 (ix2 r o) = Bt (ix2 r o)) :
    k0_pay1 (F := Ideal) x0 x1 x2 j = Cert.Lora.flat X2 At Bt i := by
  subst hj hi
  rw [Cert.KernelIdeal.Block.pay_apply]
  show _ = ∑ r : Fin 16, (∑ k : Fin 4096, X2 (ix2 row k) * At (ix2 k r)) * Bt (ix2 r q)
  refine Finset.sum_congr rfl fun r _ => ?_
  rw [h2 r q]
  refine congrArg (· * Bt (ix2 r q)) (Finset.sum_congr rfl fun k _ => ?_)
  rw [hx k, h1 k r]

/-- The block indices, decided over the 32 points: the x block and the result block are block t of their rows, the two
    factors' blocks are the whole arrays. -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem hz : (![0, 0] : Fin 2 → Nat) = fun _ => 0 := funext fun a => by fin_cases a <;> rfl

/-! ## What a point writes back, and the array after the run -/

/-- Point t writes back block t of `G`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz]
  simp only [View.ld_unit_zero (S := S256x4096) hz, View.ld_unit_zero (S := S4096x16) hz, View.ld_unit_zero (S := S16x4096) hz]
  obtain ⟨e30, e31, e00, e01, e10, e11, e20, e21⟩ := idx_facts t
  have hN : cfg0.N = 32 := N_0
  have ht : t.val < 32 := hN ▸ t.isLt
  refine funext fun (j : S256x4096.Idx) => ?_
  have hj0 : (j 0).val < 256 := (j 0).isLt
  have hj1 : (j 1).val < 4096 := (j 1).isLt
  have hrow : t.val * 256 + (j 0).val < 8192 := by omega
  show k0_pay1 (F := Ideal) (iblk m c 0 t) (iblk m c 1 t) (iblk m c 2 t) j
    = Cert.Lora.flat (V m c main_v0) (V m c main_v1) (V m c main_v2) (((cfg0.win 3).blk t).view.emb j)
  refine block_flat (iblk m c 0 t) (iblk m c 1 t) (iblk m c 2 t) (V m c main_v0) (V m c main_v1) (V m c main_v2)
    j (((cfg0.win 3).blk t).view.emb j) (j 0) (j 1) ⟨t.val * 256 + (j 0).val, hrow⟩ (eq_ix2 j) ?_ ?_ ?_ ?_
  · funext a; apply Fin.ext
    match a with
    | ⟨0, _⟩ => show win0_3.index t (0 : Fin 2) * 256 + 1 * (j 0).val = t.val * 256 + (j 0).val; omega
    | ⟨1, _⟩ => show win0_3.index t (1 : Fin 2) * 4096 + 1 * (j 1).val = (j 1).val; omega
  · intro k
    show V m c main_v0 (((cfg0.win 0).blk t).view.emb (ix2 (j 0) k)) = V m c main_v0 (ix2 (⟨t.val * 256 + (j 0).val, hrow⟩ : Fin 8192) k)
    refine congrArg (V m c main_v0) (funext fun a => Fin.ext ?_)
    match a with
    | ⟨0, _⟩ => show win0_0.index t (0 : Fin 2) * 256 + 1 * (j 0).val = t.val * 256 + (j 0).val; omega
    | ⟨1, _⟩ => show win0_0.index t (1 : Fin 2) * 4096 + 1 * k.val = k.val; omega
  · intro k r
    show V m c main_v1 (((cfg0.win 1).blk t).view.emb (ix2 k r)) = V m c main_v1 (ix2 k r)
    refine congrArg (V m c main_v1) (funext fun a => Fin.ext ?_)
    match a with
    | ⟨0, _⟩ => show win0_1.index t (0 : Fin 2) * 4096 + 1 * k.val = k.val; omega
    | ⟨1, _⟩ => show win0_1.index t (1 : Fin 2) * 16 + 1 * r.val = r.val; omega
  · intro r o
    show V m c main_v2 (((cfg0.win 2).blk t).view.emb (ix2 r o)) = V m c main_v2 (ix2 r o)
    refine congrArg (V m c main_v2) (funext fun a => Fin.ext ?_)
    match a with
    | ⟨0, _⟩ => show win0_2.index t (0 : Fin 2) * 16 + 1 * r.val = r.val; omega
    | ⟨1, _⟩ => show win0_2.index t (1 : Fin 2) * 4096 + 1 * o.val = o.val; omega

/-- An index of the result array is in point t's block iff each coordinate is in the block's range on its axis. -/
theorem mem_blk (t : Fin cfg0.N) (i : S8192x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v3).slice (win0_3.rect t)).set ↔ _
  rw [View.set_slice_whole, Rect.mem_set_unit]
  exact Iff.rfl

/-- Every index of the result array is in the block of the point row / 256. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 32 := N_0
  have hlt : (i 0).val / 256 < cfg0.N := by rw [hN]; omega
  obtain ⟨e30, e31, -⟩ := idx_facts ⟨(i 0).val / 256, hlt⟩
  refine ⟨⟨(i 0).val / 256, hlt⟩, flush0_3 _, ?_⟩
  rw [mem_blk]
  intro a
  match a with
  | ⟨0, _⟩ =>
    show win0_3.index ⟨(i 0).val / 256, hlt⟩ (0 : Fin 2) * 256 ≤ (i 0).val ∧ (i 0).val < win0_3.index ⟨(i 0).val / 256, hlt⟩ (0 : Fin 2) * 256 + 256
    rw [e30]
    show (i 0).val / 256 * 256 ≤ (i 0).val ∧ (i 0).val < (i 0).val / 256 * 256 + 256
    omega
  | ⟨1, _⟩ =>
    show win0_3.index ⟨(i 0).val / 256, hlt⟩ (1 : Fin 2) * 4096 ≤ (i 1).val ∧ (i 1).val < win0_3.index ⟨(i 0).val / 256, hlt⟩ (1 : Fin 2) * 4096 + 4096
    rw [e31]
    omega

/-- The result array of the region after the run. -/
theorem final (c : Dev nD) : (dats m 0 c).arrAt 3 cfg0.N = G m c :=
  (dats m 0 c).arrAt_eq_of_cover 3 (G m c) (fun t _ => flushed_eq m c t) cover

/-! ## The program's last line, and the run -/

/-- The program's result buffer: the region's array reshaped to [4, 2048, 4096]. -/
theorem tail_result (c : Dev nD) :
    (Pipeline.afterTail₀ cfgs (dats m) 0 (V0 m) [hostOps1] c main_v4 : S4x2048x4096.Idx → EReal)
      = shapeCast S4x2048x4096 (G m c) Facts₀.shapeCasts_S8192x4096_S4x2048x4096 := by
  have e : Pipeline.withArrays (cfgs 0).spec c (V0 m c) (fun w => (dats m 0 c).arrAt w (cfgs 0).N) (Proc.devRef .tc main_v3) = G m c :=
    (Pipeline.withArrays_arr spec0 launch0.win.arr_inj c _ _ 3).trans (final m c)
  unfold Pipeline.afterTail₀
  show StableHlo.after hostOps1 _ (Proc.devRef .tc main_v4) = _
  after_results
  show shapeCast S4x2048x4096 (Pipeline.withArrays (cfgs 0).spec c (V0 m c) (fun w => (dats m 0 c).arrAt w (cfgs 0).N)
    (Proc.devRef .tc main_v3)) Facts₀.shapeCasts_S8192x4096_S4x2048x4096 = _
  rw [e]

/-- Reshaped, the flat form on the flattened x and the transposed factors is the factored form of the arguments. -/
theorem result_eq (c : Dev nD) :
    shapeCast S4x2048x4096 (G m c) Facts₀.shapeCasts_S8192x4096_S4x2048x4096
      = Cert.Lora.factored (m ((c : Thread nD τ).loc main_arg0)) (m ((c : Thread nD τ).loc main_arg1)) (m ((c : Thread nD τ).loc main_arg2)) := by
  show shapeCast S4x2048x4096 (Cert.Lora.flat (V m c main_v0) (V m c main_v1) (V m c main_v2)) _ = _
  rw [V_flat m c, V_At m c, V_Bt m c]
  exact Cert.Lora.unflatten _ _ _ _ _ _ _

/-- The kernel's run, read: the result buffer at the factored form of the arguments, the arguments unchanged. -/
theorem run : θ_run defs (onTc (τ := τ) (main (F := Ideal))) ⟨m, fun _ => 0, ρ⟩ fun r => ∀ c : Dev nD,
      r.2.mem ((c : Thread nD τ).loc main_v4)
        = Cert.Lora.factored (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v4 (Pipeline.mem_restRefs_of main_v4 (by decide) (by decide))).trans ((tail_result m c).trans (result_eq m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Array

end
-- ==== Proof.LoraReference.lean ====
/-
  The reference's result is the dense form.

  The reference first multiplies the two factors, W (o, k) = Σ_r B (o, r) · A (r, k), and then contracts x with W over
  the input feature: out (b, s, o) = Σ_k x (b, s, k) · W (o, k).
-/
import proofs.«181855_j11914239279650_2_alg».proof.Proof.Gen.ReferenceIdeal.Read
import proofs.«181855_j11914239279650_2_alg».proof.Proof.LoraSpec

noncomputable section

namespace Cert.ReferenceIdeal.Dense

open Cert.ReferenceIdeal Idealize.ShloMosaic Idealize.ShloMosaic.ValueIdx

/-- The reference's two contractions, read at an index, are the dense form. -/
theorem ref_eq_dense (X : S4x2048x4096.Idx → EReal) (B : S4096x16.Idx → EReal) (A : S16x4096.Idx → EReal) :
    Read.val_main_v1 (F := Ideal) X B A = Cert.Lora.dense X B A := by
  funext i
  rw [Read.val_main_v1_apply]
  unfold Cert.Lora.dense
  refine Finset.sum_congr rfl fun k _ => ?_
  rw [Read.val_main_v0_apply]
  have e0 : Read.lidx_main_v1 i k = ix3 (i 0) (i 1) k :=
    funext fun a => by match a with | ⟨0, _⟩ => rfl | ⟨1, _⟩ => rfl | ⟨2, _⟩ => rfl
  rw [e0]
  refine congrArg (X (ix3 (i 0) (i 1) k) * ·) (Finset.sum_congr rfl fun r _ => ?_)
  have e1 : Read.lidx_main_v0 (Read.ridx_main_v1 i k) r = ix2 (i 2) r :=
    funext fun a => by match a with | ⟨0, _⟩ => rfl | ⟨1, _⟩ => rfl
  have e2 : Read.ridx_main_v0 (Read.ridx_main_v1 i k) r = ix2 r k :=
    funext fun a => by match a with | ⟨0, _⟩ => rfl | ⟨1, _⟩ => rfl
  rw [e1, e2]
  rfl

end Cert.ReferenceIdeal.Dense

end
-- ==== Proof.LibAllFinite.lean ====
/-
  From a "finite inputs" precondition to real numbers, for an array of any shape over the extended reals.
  Such a precondition is, per float argument, an all-reduction (a reduce by `and` of a one-bit array into a
  result of one index) of the comparison |x| < +∞, entry by entry. An extended real whose absolute value
  max x (−x) is below the word of +∞ is neither −∞ nor +∞ (|−∞| = |+∞| = +∞), hence a real number; so when the
  all-reduction is one, every entry of the argument is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.AllFinite

open Idealize.ShloMosaic Idealize.ShloMosaic.ValueIdx

/-- A rank-0 array has one index. -/
instance scalarIdxSubsingleton : Subsingleton (⟨0, ![]⟩ : Shape).Idx := ⟨fun a b => funext fun d => d.elim0⟩

/-- An extended real whose absolute value is below the word of +∞ is a real number. -/
theorem real_of_abs_lt_top (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- `jnp.all(|x| < +∞)` being one — the host's all-reduction, over any axes, into one index, of the comparison of
    the host's absolute value of `x` with the broadcast word of +∞ — makes every entry of `x` a real number. -/
theorem real_of_all {s : Shape} {axes : List (Fin s.rank)} (x : s.Idx → EReal)
    (hb : (⟨0, ![]⟩ : Shape).BroadcastsInDim s ![]) (hr : s.ReducesTo axes ⟨0, ![]⟩)
    (hu : 0 < (⟨0, ![]⟩ : Shape).numel)
    (e : Host.reduce IntOp.andi (cmpf (F := Ideal) (φ := .f32) .olt (Host.absf (F := Ideal) (φ := .f32) x)
        (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  have hi := Host.reduce_andi_all _ _ hr hu ix0 e i
  have hc : broadcastInDim s ![] hb (constant (F := Ideal) ⟨0, ![]⟩ .f32 0x7F800000#32) i
      = Ideal.ofBits .f32 0x7F800000#32 := broadcastInDim_scalar_apply hb _ i
  refine real_of_abs_lt_top (x i) ?_
  rw [← hc]
  exact hi

end Cert.Lib.AllFinite

end
-- ==== Proof.LoraFinite.lean ====
/-
  From the precondition to real numbers.

  The precondition is the conjunction, over the three arguments, of "every entry has absolute value below +∞". A
  conjunction of one-bit words is one exactly when each is, and for each argument the all-reduction being one makes every
  entry a real number.
-/
import proofs.«181855_j11914239279650_2_alg».proof.Pre_finite_inputs
import proofs.«181855_j11914239279650_2_alg».proof.Proof.LibAllFinite
import Idealize.ShloMosaic.Lib.Affine
import Idealize.ShloMosaic.Lib.ValueIdx

noncomputable section

namespace Cert.Lora.Finite

open Idealize.ShloMosaic Idealize.ShloMosaic.ValueIdx Cert.Pre_finite_inputs

variable [Cert.Pre_finite_inputs.Facts]

/-- When the precondition holds of (x, B, A), every entry of each is a real number. -/
theorem real_of_pre (X : S4x2048x4096.Idx → EReal) (B : S4096x16.Idx → EReal) (A : S16x4096.Idx → EReal)
    (h : Cert.Pre_finite_inputs.fn (F := Ideal) X B A = fun _ => 1#1) :
    (∀ i, ∃ r : ℝ, X i = (r : EReal)) ∧ (∀ i, ∃ r : ℝ, B i = (r : EReal)) ∧ (∀ i, ∃ r : ℝ, A i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨Cert.Lib.AllFinite.real_of_all X _ _ _ h0', Cert.Lib.AllFinite.real_of_all B _ _ _ h1,
    Cert.Lib.AllFinite.real_of_all A _ _ _ h2⟩

end Cert.Lora.Finite

end
-- ==== Proof.lean ====
/-
  A low-rank linear layer, evaluated in two arrangements.

  Arguments: x of shape [4, 2048, 4096] (batch, position, input feature), B of shape [4096, 16] (output feature, rank)
  and A of shape [16, 4096] (rank, input feature).

  The kernel flattens x to 8192 rows, and for each block of 256 rows computes (x · Aᵀ) · Bᵀ: first the 16 numbers
  Σ_k x (row, k) · A (r, k), then Σ_r of these times B (o, r). Its result, reshaped to [4, 2048, 4096], is the factored
  form  out (b, s, o) = Σ_r (Σ_k x (b, s, k) · A (r, k)) · B (o, r).
  The reference multiplies the factors first, W (o, k) = Σ_r B (o, r) · A (r, k), and then contracts x with W: the dense
  form  out (b, s, o) = Σ_k x (b, s, k) · (Σ_r B (o, r) · A (r, k)).
  The two forms agree by distributivity and an exchange of the two finite sums. Distributivity fails at the infinities
  of the extended reals, and this is where the precondition is used: every entry of x, A and B is finite, hence a real
  number. Changes of float format are the identity on the extended reals, both matrix products start from a zero
  accumulator, and nothing was rewritten when the kernel was idealized, so there is nothing to preserve.
-/
import proofs.«181855_j11914239279650_2_alg».proof.Defs
import proofs.«181855_j11914239279650_2_alg».proof.Proof.Gen.Kernel
import proofs.«181855_j11914239279650_2_alg».proof.Proof.Gen.Kernel.Skeleton
import proofs.«181855_j11914239279650_2_alg».proof.Proof.Gen.Kernel.Launch
import proofs.«181855_j11914239279650_2_alg».proof.Proof.Gen.Kernel.Points
import proofs.«181855_j11914239279650_2_alg».proof.Proof.Gen.Kernel.Frame
import proofs.«181855_j11914239279650_2_alg».proof.Proof.Gen.KernelIdeal
import proofs.«181855_j11914239279650_2_alg».proof.Proof.Gen.KernelIdeal.Skeleton
import proofs.«181855_j11914239279650_2_alg».proof.Proof.Gen.KernelIdeal.Launch
import proofs.«181855_j11914239279650_2_alg».proof.Proof.Gen.KernelIdeal.Points
import proofs.«181855_j11914239279650_2_alg».proof.Proof.Gen.KernelIdeal.Frame
import proofs.«181855_j11914239279650_2_alg».proof.Proof.Gen.ReferenceIdeal
import proofs.«181855_j11914239279650_2_alg».proof.Proof.Gen.Pre_finite_inputs
import proofs.«181855_j11914239279650_2_alg».proof.Proof.Gen.ReferenceIdeal.Run
import proofs.«181855_j11914239279650_2_alg».proof.Proof.Gen.ReferenceIdeal.Read
import proofs.«181855_j11914239279650_2_alg».proof.Proof.LoraArray
import proofs.«181855_j11914239279650_2_alg».proof.Proof.LoraReference
import proofs.«181855_j11914239279650_2_alg».proof.Proof.LoraFinite
import Idealize.ShloMosaic.Adequacy
import Idealize.ShloMosaic.Init

noncomputable section

namespace Cert.Proof

open Idealize.ShloMosaic Idealize.SL.Sem Cert.Kernel

/-- The two idealized programs end with the same result: the kernel's run ends at the factored form of its arguments,
    the reference's at the dense form of its own, the arguments agree, and for real entries the two forms are one. -/
theorem algebraic : Cert.algebraic_KernelIdeal_ReferenceIdeal := by
  intro m ρ m' ρ' hpre hagree
  refine ⟨fun c => Cert.Lora.factored
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hB, hA⟩ := Cert.Lora.Finite.real_of_pre _ _ _ (hpre c)
  rw [(hagree c).1, (hagree c).2.1, (hagree c).2.2]
  exact ((Cert.ReferenceIdeal.Read.val_main_v1_eq _ _ _).trans (Cert.ReferenceIdeal.Dense.ref_eq_dense _ _ _)).trans
    (Cert.Lora.factored_eq_dense _ _ _ hX hB hA).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
